-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x4096 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S8 .f32) (main_arg2 : FVec F S4096x8 .f32) (main_arg3 : FVec F S4096 .f32) (main_arg4 : FVec F S1024x4096 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x2048x8 : Shape := ⟨3, ![4, 2048, 8]⟩
abbrev S8192x8 : Shape := ⟨2, ![8192, 8]⟩
abbrev S_ : Shape := ⟨0, ![]⟩
abbrev S1x8 : Shape := ⟨2, ![1, 8]⟩
abbrev S1x4096 : Shape := ⟨2, ![1, 4096]⟩
abbrev S1x1024 : Shape := ⟨2, ![1, 1024]⟩
abbrev S8192x1024 : Shape := ⟨2, ![8192, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 24
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x2048x8, .f32⟩
  | .hbm, ⟨7, _⟩ => ⟨S8192x8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S1x8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S1x8, .f32⟩
  | .hbm, ⟨18, _⟩ => ⟨S4096x8, .bf16⟩
  | .hbm, ⟨19, _⟩ => ⟨S1024x4096, .bf16⟩
  | .hbm, ⟨20, _⟩ => ⟨S1x4096, .f32⟩
  | .hbm, ⟨21, _⟩ => ⟨S1x1024, .f32⟩
  | .hbm, ⟨22, _⟩ => ⟨S8192x1024, .f32⟩
  | .hbm, ⟨23, _⟩ => ⟨S4x2048x1024, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S1x8, .f32⟩
  | .local _ .vmem, ⟨4, _⟩ => ⟨S4096x8, .bf16⟩
  | .local _ .vmem, ⟨5, _⟩ => ⟨S1x4096, .f32⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst_0 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4x2048x1024_S4x2048x8_0_0_0 : S4x2048x1024.Slices ![0, 0, 0] S4x2048x8
  shapeCasts_S4x2048x8_S8192x8 : S4x2048x8.ShapeCasts S8192x8
  bcast_S_S8 : S_.BroadcastsInDim S8 (![] : Fin 0 → Fin S8.rank)
  shapeCasts_S8_S1x8 : S8.ShapeCasts S1x8
  bitsLt_bf16_f32 : FTy.bits .bf16 < FTy.bits .f32
  shapeCasts_S4096_S1x4096 : S4096.ShapeCasts S1x4096
  shapeCasts_S1024_S1x1024 : S1024.ShapeCasts S1x1024
  shapeCasts_S8192x1024_S4x2048x1024 : S8192x1024.ShapeCasts S4x2048x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x8_S4096x8_S512x4096_1_1_0_0_n_n_wf : DotDims.WF S512x8 S4096x8 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S8192x8.size a
  hwx0_0 : ∀ i : grid0.Coords, EltTy.bits .f32 = 32 ∨ (Rect.block (s := S8192x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x8.size a ≤ S4096x8.size a
  hwx0_3 : ∀ i : grid0.Coords, EltTy.bits .bf16 = 32 ∨ (Rect.block (s := S4096x8) S4096x8.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x8_S4096x8_S512x4096_1_1_0_0_n_n : DotDims S512x8 S4096x8 S512x4096 where
  lhsContracting := [1]
  rhsContracting := [1]
  lhsNonContracting := [0]
  rhsNonContracting := [0]
  lhsBatch := []
  rhsBatch := []
  wf := dot_S512x8_S4096x8_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_call0_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v5) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v9) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S4096x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v12) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v13) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v14) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x2048x8 : Shape := ⟨3, ![4, 2048, 8]⟩
abbrev S_ : Shape := ⟨0, ![]⟩
abbrev S1x1x8 : Shape := ⟨3, ![1, 1, 8]⟩
abbrev S4x2048x4096 : Shape := ⟨3, ![4, 2048, 4096]⟩
abbrev S1x1x4096 : Shape := ⟨3, ![1, 1, 4096]⟩
abbrev S1x1x1024 : Shape := ⟨3, ![1, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S4x2048x8, .f32⟩
  | .hbm, ⟨7, _⟩ => ⟨S_, .f32⟩
  | .hbm, ⟨8, _⟩ => ⟨S4x2048x8, .f32⟩
  | .hbm, ⟨9, _⟩ => ⟨S4x2048x8, .f32⟩
  | .hbm, ⟨10, _⟩ => ⟨S4x2048x8, .f32⟩
  | .hbm, ⟨11, _⟩ => ⟨S_, .f32⟩
  | .hbm, ⟨12, _⟩ => ⟨S4x2048x8, .f32⟩
  | .hbm, ⟨13, _⟩ => ⟨S4x2048x8, .f32⟩
  | .hbm, ⟨14, _⟩ => ⟨S4x2048x8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S8, .f32⟩
  | .hbm, ⟨23, _⟩ => ⟨S1x1x8, .f32⟩
  | .hbm, ⟨24, _⟩ => ⟨S4x2048x8, .f32⟩
  | .hbm, ⟨25, _⟩ => ⟨S4x2048x8, .f32⟩
  | .hbm, ⟨26, _⟩ => ⟨S4x2048x8, .f32⟩
  | .hbm, ⟨27, _⟩ => ⟨S1x1x8, .f32⟩
  | .hbm, ⟨28, _⟩ => ⟨S4x2048x8, .f32⟩
  | .hbm, ⟨29, _⟩ => ⟨S4x2048x8, .f32⟩
  | .hbm, ⟨30, _⟩ => ⟨S4x2048x8, .f32⟩
  | .hbm, ⟨31, _⟩ => ⟨S4x2048x8, .f32⟩
  | .hbm, ⟨32, _⟩ => ⟨S1x1x8, .f32⟩
  | .hbm, ⟨33, _⟩ => ⟨S4x2048x8, .f32⟩
  | .hbm, ⟨34, _⟩ => ⟨S4x2048x8, .f32⟩
  | .hbm, ⟨35, _⟩ => ⟨S4x2048x8, .f32⟩
  | .hbm, ⟨36, _⟩ => ⟨S1x1x8, .f32⟩
  | .hbm, ⟨37, _⟩ => ⟨S4x2048x8, .f32⟩
  | .hbm, ⟨38, _⟩ => ⟨S4x2048x8, .f32⟩
  | .hbm, ⟨39, _⟩ => ⟨S4x2048x8, .f32⟩
  | .hbm, ⟨40, _⟩ => ⟨S4x2048x8, .f32⟩
  | .hbm, ⟨41, _⟩ => ⟨S4x2048x8, .f32⟩
  | .hbm, ⟨42, _⟩ => ⟨S4x2048x4096, .f32⟩
  | .hbm, ⟨43, _⟩ => ⟨S1x1x4096, .f32⟩
  | .hbm, ⟨44, _⟩ => ⟨S4x2048x4096, .f32⟩
  | .hbm, ⟨45, _⟩ => ⟨S4x2048x4096, .f32⟩
  | .hbm, ⟨46, _⟩ => ⟨S_, .f32⟩
  | .hbm, ⟨47, _⟩ => ⟨S4x2048x4096, .f32⟩
  | .hbm, ⟨48, _⟩ => ⟨S4x2048x4096, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_cst : Ref sig .tc := ⟨.hbm, 46, rfl⟩
abbrev main_call0_v0 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  slices_S4x2048x1024_S4x2048x8_0_0_0 : S4x2048x1024.Slices ![0, 0, 0] S4x2048x8
  bcast_S_S4x2048x8 : S_.BroadcastsInDim S4x2048x8 (![] : Fin 0 → Fin S4x2048x8.rank)
  bcast_S_S8 : S_.BroadcastsInDim S8 (![] : Fin 0 → Fin S8.rank)
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x8_S4096x8_S4x2048x4096_2_1_01_0_n_n_wf : DotDims.WF S4x2048x8 S4096x8 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.Spec.lean ====
/-
  The function both programs compute, entry by entry, on the extended reals.

  A token (b, s) of the input keeps only its first eight features. Feature q is encoded on one qubit: a rotation
  about X by the feature, then a rotation about Y by the trained angle θ_q, then the expectation of Z. With
  c = cos(a/2), s = sin(a/2) for the feature a and ct = cos(θ_q/2), st = sin(θ_q/2), the two populations are
  (ct·c)² + (st·s)² and (st·c)² + (ct·s)², and the expectation is their difference. The eight expectations of a
  token then pass through a two-layer perceptron: a linear map to 4096 hidden units with a bias, the positive part,
  and a linear map to 1024 outputs with a bias.

  The same entry is stated twice, once for the result laid out by token (batch, position, output) and once for the
  result laid out by row (row = batch · 2048 + position), over row operands as a row-blocked computation finds
  them; `mlpRows_at_token` says the two layouts hold the same numbers once the row operands are the token
  operands re-laid. No law of arithmetic is used anywhere: the two programs apply the same operations in the same
  order, and sums over a finite index set on the extended reals do not depend on an order of summation.
-/
import Idealize.ShloMosaic.PureOps.Ideal
import Idealize.ShloMosaic.Lib.ValueIdx

noncomputable section

namespace Cert.Mlp

open Idealize.ShloMosaic Idealize.ShloMosaic.ValueIdx

/-- One half, as the binary word both programs carry for it. -/
def half : EReal := Ideal.ofBits .f32 0x3F000000#32

/-- The threshold of the positive part, as the binary word both programs carry for it. -/
def floor0 : EReal := Ideal.ofBits .f32 0x00000000#32

/-- The expectation of Z on one wire: `a` the encoded feature, `ct` and `st` the cosine and the sine of half
    the trained angle. The difference of the two populations, each a sum of two squares. -/
def pauliZ (a ct st : EReal) : EReal :=
  ((ct * Ideal.cos (a * half)) * (ct * Ideal.cos (a * half)) + (st * Ideal.sin (a * half)) * (st * Ideal.sin (a * half)))
    - ((st * Ideal.cos (a * half)) * (st * Ideal.cos (a * half)) + (ct * Ideal.sin (a * half)) * (ct * Ideal.sin (a * half)))

/-- One output of the perceptron from a token's eight expectations `z`: hidden unit `f` is the positive part of
    `∑ q, z q · w1 f q + b1 f`, and the output is `∑ f, hidden f · w2 f + b2`, `w2` and `b2` being the output's own
    row of the second weight matrix and its own bias. -/
def entry (z : Fin 8 → EReal) (w1 : Fin 4096 → Fin 8 → EReal) (b1 : Fin 4096 → EReal) (w2 : Fin 4096 → EReal) (b2 : EReal) : EReal :=
  (∑ f : Fin 4096, max ((∑ q : Fin 8, z q * w1 f q) + b1 f) floor0 * w2 f) + b2

/-- The first eight features sit at the first eight of the 1024 positions of the last axis. -/
def feat (q : Fin 8) : Fin 1024 := ⟨q.val, by have := q.isLt; omega⟩

/-- The result laid out by token: entry (b, s, d) from the arguments as the caller gives them. -/
def mlpTokens (x : (⟨3, ![4, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal) :
    (⟨3, ![4, 2048, 1024]⟩ : Shape).Idx → EReal := fun i =>
  entry (fun q => pauliZ (x (ix3 (i 0) (i 1) (feat q))) (Ideal.cos (θ (ix1 q) * half)) (Ideal.sin (θ (ix1 q) * half)))
    (fun f q => W1 (ix2 f q)) (fun f => b1 (ix1 f)) (fun f => W2 (ix2 (i 2) f)) (b2 (ix1 (i 2)))

/-- The result laid out by row: entry (r, d) from row operands — the encoded features one row per token, the half-angle
    cosines and sines and the two biases each as a single row. -/
def mlpRows (xq : (⟨2, ![8192, 8]⟩ : Shape).Idx → EReal) (ct st : (⟨2, ![1, 8]⟩ : Shape).Idx → EReal)
    (w1 : (⟨2, ![4096, 8]⟩ : Shape).Idx → EReal) (b1 : (⟨2, ![1, 4096]⟩ : Shape).Idx → EReal)
    (w2 : (⟨2, ![1024, 4096]⟩ : Shape).Idx → EReal) (b2 : (⟨2, ![1, 1024]⟩ : Shape).Idx → EReal) :
    (⟨2, ![8192, 1024]⟩ : Shape).Idx → EReal := fun j =>
  entry (fun q => pauliZ (xq (ix2 (j 0) q)) (ct (ix2 0 q)) (st (ix2 0 q)))
    (fun f q => w1 (ix2 f q)) (fun f => b1 (ix2 0 f)) (fun f => w2 (ix2 (j 1) f)) (b2 (ix2 0 (j 1)))

/-- A row r of the row layout is token (b, s) of the token layout, when the row operands are the token operands
    re-laid: the features of row r those of token (b, s) (as they are for r = b · 2048 + s), the single rows the
    half-angle cosines and sines and the biases, the weights unchanged. -/
theorem mlpRows_at_token
    (xq : (⟨2, ![8192, 8]⟩ : Shape).Idx → EReal) (ct st : (⟨2, ![1, 8]⟩ : Shape).Idx → EReal)
    (w1 : (⟨2, ![4096, 8]⟩ : Shape).Idx → EReal) (b1r : (⟨2, ![1, 4096]⟩ : Shape).Idx → EReal)
    (w2 : (⟨2, ![1024, 4096]⟩ : Shape).Idx → EReal) (b2r : (⟨2, ![1, 1024]⟩ : Shape).Idx → EReal)
    (x : (⟨3, ![4, 2048, 1024]⟩ : Shape).Idx → EReal) (θ : (⟨1, ![8]⟩ : Shape).Idx → EReal)
    (W1 : (⟨2, ![4096, 8]⟩ : Shape).Idx → EReal) (b1 : (⟨1, ![4096]⟩ : Shape).Idx → EReal)
    (W2 : (⟨2, ![1024, 4096]⟩ : Shape).Idx → EReal) (b2 : (⟨1, ![1024]⟩ : Shape).Idx → EReal)
    (b : Fin 4) (s : Fin 2048) (d : Fin 1024) (r : Fin 8192)
    (hx : ∀ q : Fin 8, xq (ix2 r q) = x (ix3 b s (feat q)))
    (hct : ∀ q : Fin 8, ct (ix2 0 q) = Ideal.cos (θ (ix1 q) * half))
    (hst : ∀ q : Fin 8, st (ix2 0 q) = Ideal.sin (θ (ix1 q) * half))
    (hw1 : w1 = W1) (hb1 : ∀ f : Fin 4096, b1r (ix2 0 f) = b1 (ix1 f))
    (hw2 : w2 = W2) (hb2 : ∀ e : Fin 1024, b2r (ix2 0 e) = b2 (ix1 e)) :
    mlpRows xq ct st w1 b1r w2 b2r (ix2 r d) = mlpTokens x θ W1 b1 W2 b2 (ix3 b s d) := by
  subst hw1 hw2
  show entry (fun q => pauliZ (xq (ix2 r q)) (ct (ix2 0 q)) (st (ix2 0 q))) (fun f q => w1 (ix2 f q)) (fun f => b1r (ix2 0 f))
      (fun f => w2 (ix2 d f)) (b2r (ix2 0 d))
    = entry (fun q => pauliZ (x (ix3 b s (feat q))) (Ideal.cos (θ (ix1 q) * half)) (Ideal.sin (θ (ix1 q) * half)))
      (fun f q => w1 (ix2 f q)) (fun f => b1 (ix1 f)) (fun f => w2 (ix2 d f)) (b2 (ix1 d))
  simp only [hx, hct, hst, hb1, hb2]

end Cert.Mlp

end
-- ==== Proof.Payload.lean ====
/-
  What the body computes for one block of 512 rows, entry by entry.

  The body loads a block of encoded features (512 rows, 8 wires), the single rows of half-angle cosines and sines,
  both weight matrices and both bias rows, and stores one block of 512 × 1024 results. Its arithmetic is the formula
  itself: halve the features, take cosines and sines, form the two populations and their difference (the change of
  number format before each product does nothing to an extended real), multiply by the first weights summing over
  the 8 wires into a zero accumulator, add the bias row, take the positive part, multiply by the second weights
  summing over the 4096 hidden units into a zero accumulator, add the second bias row. Read at row r and output d,
  each product into a zero accumulator is the plain finite sum of products, each single row spread over the 512
  rows is read at its one row, and what is left is `Cert.Mlp.entry` of the loaded blocks.
-/
import proofs.«159652_j65481071410316_2_alg».proof.Proof.Gen.KernelIdeal.Skeleton
import proofs.«159652_j65481071410316_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AsMlp

open Cert.KernelIdeal Cert.KernelIdeal.Gen Cert.KernelIdeal.Facts₀ Idealize.ShloMosaic Idealize.ShloMosaic.ValueIdx Cert.Mlp

/-! ## The two products, each into a zero accumulator, as finite sums

Each operand index of a product is named coordinate by coordinate: the row of the left operand is the output's row,
the row of the right operand is the output's column, and the second coordinate of both is the summation index. -/

theorem lhs_first_0 (j : S512x4096.Idx) (k : dot_S512x8_S4096x8_S512x4096_1_1_0_0_n_n.contr.Idx) : (dot_S512x8_S4096x8_S512x4096_1_1_0_0_n_n.lhsIdx j k 0).val = (j 0).val := by
  unfold DotDims.lhsIdx
  rw [dif_neg (show ¬(0 : Fin S512x8.rank) ∈ dot_S512x8_S4096x8_S512x4096_1_1_0_0_n_n.lhsBatch by decide), dif_pos (show (0 : Fin S512x8.rank) ∈ dot_S512x8_S4096x8_S512x4096_1_1_0_0_n_n.lhsNonContracting by decide)]
  rfl
theorem lhs_first_1 (j : S512x4096.Idx) (k : dot_S512x8_S4096x8_S512x4096_1_1_0_0_n_n.contr.Idx) : (dot_S512x8_S4096x8_S512x4096_1_1_0_0_n_n.lhsIdx j k 1).val = (k ⟨0, by decide⟩).val :=
  dot_S512x8_S4096x8_S512x4096_1_1_0_0_n_n.lhsIdx_val_of_single rfl j k
theorem rhs_first_0 (j : S512x4096.Idx) (k : dot_S512x8_S4096x8_S512x4096_1_1_0_0_n_n.contr.Idx) : (dot_S512x8_S4096x8_S512x4096_1_1_0_0_n_n.rhsIdx j k 0).val = (j 1).val := by
  unfold DotDims.rhsIdx
  rw [dif_neg (show ¬(0 : Fin S4096x8.rank) ∈ dot_S512x8_S4096x8_S512x4096_1_1_0_0_n_n.rhsBatch by decide), dif_pos (show (0 : Fin S4096x8.rank) ∈ dot_S512x8_S4096x8_S512x4096_1_1_0_0_n_n.rhsNonContracting by decide)]
  rfl
theorem rhs_first_1 (j : S512x4096.Idx) (k : dot_S512x8_S4096x8_S512x4096_1_1_0_0_n_n.contr.Idx) : (dot_S512x8_S4096x8_S512x4096_1_1_0_0_n_n.rhsIdx j k 1).val = (k ⟨0, by decide⟩).val :=
  dot_S512x8_S4096x8_S512x4096_1_1_0_0_n_n.rhsIdx_val_of_single rfl j k

theorem lhs_second_0 (j : S512x1024.Idx) (k : dot_S512x4096_S1024x4096_S512x1024_1_1_0_0_n_n.contr.Idx) : (dot_S512x4096_S1024x4096_S512x1024_1_1_0_0_n_n.lhsIdx j k 0).val = (j 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_second_1 (j : S512x1024.Idx) (k : dot_S512x4096_S1024x4096_S512x1024_1_1_0_0_n_n.contr.Idx) : (dot_S512x4096_S1024x4096_S512x1024_1_1_0_0_n_n.lhsIdx j k 1).val = (k ⟨0, by decide⟩).val :=
  dot_S512x4096_S1024x4096_S512x1024_1_1_0_0_n_n.lhsIdx_val_of_single rfl j k
theorem rhs_second_0 (j : S512x1024.Idx) (k : dot_S512x4096_S1024x4096_S512x1024_1_1_0_0_n_n.contr.Idx) : (dot_S512x4096_S1024x4096_S512x1024_1_1_0_0_n_n.rhsIdx j k 0).val = (j 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_second_1 (j : S512x1024.Idx) (k : dot_S512x4096_S1024x4096_S512x1024_1_1_0_0_n_n.contr.Idx) : (dot_S512x4096_S1024x4096_S512x1024_1_1_0_0_n_n.rhsIdx j k 1).val = (k ⟨0, by decide⟩).val :=
  dot_S512x4096_S1024x4096_S512x1024_1_1_0_0_n_n.rhsIdx_val_of_single rfl j k

/-- The expectations times the first weights: entry (r, f) is the sum over the 8 wires of `l (r, q) · w (f, q)`. -/
theorem first_product_apply (l : FVec Ideal S512x8 .bf16) (w : FVec Ideal S4096x8 .bf16) (r : Fin 512) (f : Fin 4096) :
    matmul dot_S512x8_S4096x8_S512x4096_1_1_0_0_n_n none l w (constant (F := Ideal) S512x4096 .f32 0x00000000#32) (ix2 r f)
      = ∑ q : Fin 8, l (ix2 r q) * w (ix2 f q) := by
  simp only [matmul]
  rw [Ideal.matmul_constant_zero_apply, ← Equiv.sum_comp (contrEquiv1 dot_S512x8_S4096x8_S512x4096_1_1_0_0_n_n 8 rfl rfl).symm]
  refine Finset.sum_congr rfl fun q _ => ?_
  have hk := contrEquiv1_symm_val dot_S512x8_S4096x8_S512x4096_1_1_0_0_n_n 8 rfl rfl q
  have el : dot_S512x8_S4096x8_S512x4096_1_1_0_0_n_n.lhsIdx (ix2 r f) ((contrEquiv1 dot_S512x8_S4096x8_S512x4096_1_1_0_0_n_n 8 rfl rfl).symm q) = ix2 r q := funext fun a => Fin.ext (by
    match a with
    | ⟨0, _⟩ => exact lhs_first_0 _ _
    | ⟨1, _⟩ => exact (lhs_first_1 _ _).trans hk)
  have er : dot_S512x8_S4096x8_S512x4096_1_1_0_0_n_n.rhsIdx (ix2 r f) ((contrEquiv1 dot_S512x8_S4096x8_S512x4096_1_1_0_0_n_n 8 rfl rfl).symm q) = ix2 f q := funext fun a => Fin.ext (by
    match a with
    | ⟨0, _⟩ => exact rhs_first_0 _ _
    | ⟨1, _⟩ => exact (rhs_first_1 _ _).trans hk)
  rw [el, er]

/-- The hidden activations times the second weights: entry (r, d) is the sum over the 4096 hidden units of `l (r, f) · w (d, f)`. -/
theorem second_product_apply (l : FVec Ideal S512x4096 .bf16) (w : FVec Ideal S1024x4096 .bf16) (r : Fin 512) (d : Fin 1024) :
    matmul dot_S512x4096_S1024x4096_S512x1024_1_1_0_0_n_n none l w (constant (F := Ideal) S512x1024 .f32 0x00000000#32) (ix2 r d)
      = ∑ f : Fin 4096, l (ix2 r f) * w (ix2 d f) := by
  simp only [matmul]
  rw [Ideal.matmul_constant_zero_apply, ← Equiv.sum_comp (contrEquiv1 dot_S512x4096_S1024x4096_S512x1024_1_1_0_0_n_n 4096 rfl rfl).symm]
  refine Finset.sum_congr rfl fun f _ => ?_
  have hk := contrEquiv1_symm_val dot_S512x4096_S1024x4096_S512x1024_1_1_0_0_n_n 4096 rfl rfl f
  have el : dot_S512x4096_S1024x4096_S512x1024_1_1_0_0_n_n.lhsIdx (ix2 r d) ((contrEquiv1 dot_S512x4096_S1024x4096_S512x1024_1_1_0_0_n_n 4096 rfl rfl).symm f) = ix2 r f := funext fun a => Fin.ext (by
    match a with
    | ⟨0, _⟩ => exact lhs_second_0 _ _
    | ⟨1, _⟩ => exact (lhs_second_1 _ _).trans hk)
  have er : dot_S512x4096_S1024x4096_S512x1024_1_1_0_0_n_n.rhsIdx (ix2 r d) ((contrEquiv1 dot_S512x4096_S1024x4096_S512x1024_1_1_0_0_n_n 4096 rfl rfl).symm f) = ix2 d f := funext fun a => Fin.ext (by
    match a with
    | ⟨0, _⟩ => exact rhs_second_0 _ _
    | ⟨1, _⟩ => exact (rhs_second_1 _ _).trans hk)
  rw [el, er]

/-! ## The stored value, entry by entry -/

/-- Entry (r, d) of what the body stores is the perceptron's entry from the loaded blocks: the features of row r,
    the single rows of half-angle cosines and sines, the first weights and bias row, row d of the second weights and
    entry d of the second bias row. -/
theorem payload_apply (x0 : Vec Ideal S512x8 .f32) (x1 x2 : Vec Ideal S1x8 .f32) (x3 : Vec Ideal S4096x8 .bf16)
    (x4 : Vec Ideal S1x4096 .f32) (x5 : Vec Ideal S1024x4096 .bf16) (x6 : Vec Ideal S1x1024 .f32) (r : Fin 512) (d : Fin 1024) :
    k0_pay1 (k0_pay2 x0 x1 x2 x3 x4 x5) (k0_pay3 x6) (ix2 r d)
      = entry (fun q => pauliZ (x0 (ix2 r q)) (x1 (ix2 0 q)) (x2 (ix2 0 q))) (fun f q => x3 (ix2 f q)) (fun f => x4 (ix2 0 f))
          (fun f => x5 (ix2 d f)) (x6 (ix2 0 d)) := by
  unfold k0_pay1 k0_pay2 k0_pay3
  dsimp only
  simp only [shapeCast_self, addf_apply, subf_apply, mulf_apply, maximumf_apply, truncf_apply, broadcast_apply,
    second_product_apply, first_product_apply, broadcastTo_1b_ab_apply]
  rfl

end Cert.KernelIdeal.AsMlp

end
-- ==== Proof.Blocks.lean ====
/-
  From what each grid point writes back to the whole result array.

  The call runs its body at 16 grid points. Point t takes rows 512·t … 512·t + 511 of the features and all of
  every other operand, and writes back rows 512·t … 512·t + 511 of the result. So what point t writes is block t of
  ONE array, `rowsResult`: the perceptron's entries laid out by row, over the operand arrays as the call finds
  them. Every row of the 8192 lies in exactly the block of point ⌊row / 512⌋, so after the last point the result
  array is `rowsResult` everywhere.
-/
import proofs.«159652_j65481071410316_2_alg».proof.Proof.Gen.KernelIdeal.Frame
import proofs.«159652_j65481071410316_2_alg».proof.Proof.Payload
import proofs.«159652_j65481071410316_2_alg».proof.Proof.Spec
import Idealize.ShloMosaic.Lib.ValueIdx
import Idealize.ShloMosaic.Lib.Pipeline.Value

noncomputable section

namespace Cert.KernelIdeal.AsMlp

open Cert.KernelIdeal Cert.KernelIdeal.Gen Idealize.ShloMosaic Idealize.ShloMosaic.TcCoe Idealize.SL.Sem
  Idealize.ShloMosaic.ValueIdx Idealize.ShloMosaic.Pipeline Cert.Mlp

variable (m : (ℓ : Loc nD τ sig) → Buf (Elt Ideal) ℓ)

/-- The result array by rows, over the operand arrays as the call finds them. -/
def rowsResult (c : Dev nD) : S8192x1024.Idx → EReal :=
  mlpRows (V m c main_call0_v1) (V m c main_call0_v5) (V m c main_call0_v9) (V m c main_call0_v10) (V m c main_call0_v12)
    (V m c main_call0_v11) (V m c main_call0_v13)

theorem zero_offsets : (![0, 0] : Fin 2 → Nat) = fun _ => 0 := funext fun a => by fin_cases a <;> rfl

/-- Which block each window takes at point t: the features and the result their t-th block of rows, every other
    operand its one block. -/
theorem point_blocks : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The input blocks at a point -/

/-- Row r of the features' block at point t is row 512·t + r of the features. -/
theorem block_features (c : Dev nD) (t : Fin cfg0.N) (r : Fin 512) (q : Fin 8) (R : Fin 8192) (hR : R.val = t.val * 512 + r.val) :
    (iblk m c 0 t : S512x8.Idx → EReal) (ix2 r q) = (V m c main_call0_v1 : S8192x8.Idx → EReal) (ix2 R q) := by
  obtain ⟨-, -, e0, e1, -⟩ := point_blocks t
  show (V m c main_call0_v1 : S8192x8.Idx → EReal) (((cfg0.win 0).blk t).view.emb (ix2 r q)) = _
  refine congrArg (V m c main_call0_v1 : S8192x8.Idx → EReal) (funext fun a => Fin.ext ?_)
  match a with
  | ⟨0, _⟩ => show win0_0.index t (0 : Fin 2) * 512 + 1 * r.val = R.val; omega
  | ⟨1, _⟩ => show win0_0.index t (1 : Fin 2) * 8 + 1 * q.val = q.val; omega

/-- The cosines' block at any point is the whole row of cosines. -/
theorem block_cosines (c : Dev nD) (t : Fin cfg0.N) : (iblk m c 1 t : S1x8.Idx → EReal) = V m c main_call0_v5 := by
  obtain ⟨-, -, -, -, e0, e1, -⟩ := point_blocks t
  funext y
  show (V m c main_call0_v5 : S1x8.Idx → EReal) (((cfg0.win 1).blk t).view.emb y) = _
  refine congrArg (V m c main_call0_v5 : S1x8.Idx → EReal) (funext fun a => Fin.ext ?_)
  match a with
  | ⟨0, _⟩ => show win0_1.index t (0 : Fin 2) * 1 + 1 * (y 0).val = (y 0).val; omega
  | ⟨1, _⟩ => show win0_1.index t (1 : Fin 2) * 8 + 1 * (y 1).val = (y 1).val; omega

/-- The sines' block at any point is the whole row of sines. -/
theorem block_sines (c : Dev nD) (t : Fin cfg0.N) : (iblk m c 2 t : S1x8.Idx → EReal) = V m c main_call0_v9 := by
  obtain ⟨-, -, -, -, -, -, e0, e1, -⟩ := point_blocks t
  funext y
  show (V m c main_call0_v9 : S1x8.Idx → EReal) (((cfg0.win 2).blk t).view.emb y) = _
  refine congrArg (V m c main_call0_v9 : S1x8.Idx → EReal) (funext fun a => Fin.ext ?_)
  match a with
  | ⟨0, _⟩ => show win0_2.index t (0 : Fin 2) * 1 + 1 * (y 0).val = (y 0).val; omega
  | ⟨1, _⟩ => show win0_2.index t (1 : Fin 2) * 8 + 1 * (y 1).val = (y 1).val; omega

/-- The first weights' block at any point is the whole matrix. -/
theorem block_weights1 (c : Dev nD) (t : Fin cfg0.N) : (iblk m c 3 t : S4096x8.Idx → EReal) = V m c main_call0_v10 := by
  obtain ⟨-, -, -, -, -, -, -, -, e0, e1, -⟩ := point_blocks t
  funext y
  show (V m c main_call0_v10 : S4096x8.Idx → EReal) (((cfg0.win 3).blk t).view.emb y) = _
  refine congrArg (V m c main_call0_v10 : S4096x8.Idx → EReal) (funext fun a => Fin.ext ?_)
  match a with
  | ⟨0, _⟩ => show win0_3.index t (0 : Fin 2) * 4096 + 1 * (y 0).val = (y 0).val; omega
  | ⟨1, _⟩ => show win0_3.index t (1 : Fin 2) * 8 + 1 * (y 1).val = (y 1).val; omega

/-- The first bias' block at any point is the whole row. -/
theorem block_bias1 (c : Dev nD) (t : Fin cfg0.N) : (iblk m c 4 t : S1x4096.Idx → EReal) = V m c main_call0_v12 := by
  obtain ⟨-, -, -, -, -, -, -, -, -, -, e0, e1, -⟩ := point_blocks t
  funext y
  show (V m c main_call0_v12 : S1x4096.Idx → EReal) (((cfg0.win 4).blk t).view.emb y) = _
  refine congrArg (V m c main_call0_v12 : S1x4096.Idx → EReal) (funext fun a => Fin.ext ?_)
  match a with
  | ⟨0, _⟩ => show win0_4.index t (0 : Fin 2) * 1 + 1 * (y 0).val = (y 0).val; omega
  | ⟨1, _⟩ => show win0_4.index t (1 : Fin 2) * 4096 + 1 * (y 1).val = (y 1).val; omega

/-- The second weights' block at any point is the whole matrix. -/
theorem block_weights2 (c : Dev nD) (t : Fin cfg0.N) : (iblk m c 5 t : S1024x4096.Idx → EReal) = V m c main_call0_v11 := by
  obtain ⟨-, -, -, -, -, -, -, -, -, -, -, -, e0, e1, -⟩ := point_blocks t
  funext y
  show (V m c main_call0_v11 : S1024x4096.Idx → EReal) (((cfg0.win 5).blk t).view.emb y) = _
  refine congrArg (V m c main_call0_v11 : S1024x4096.Idx → EReal) (funext fun a => Fin.ext ?_)
  match a with
  | ⟨0, _⟩ => show win0_5.index t (0 : Fin 2) * 1024 + 1 * (y 0).val = (y 0).val; omega
  | ⟨1, _⟩ => show win0_5.index t (1 : Fin 2) * 4096 + 1 * (y 1).val = (y 1).val; omega

/-- The second bias' block at any point is the whole row. -/
theorem block_bias2 (c : Dev nD) (t : Fin cfg0.N) : (iblk m c 6 t : S1x1024.Idx → EReal) = V m c main_call0_v13 := by
  obtain ⟨-, -, -, -, -, -, -, -, -, -, -, -, -, -, e0, e1⟩ := point_blocks t
  funext y
  show (V m c main_call0_v13 : S1x1024.Idx → EReal) (((cfg0.win 6).blk t).view.emb y) = _
  refine congrArg (V m c main_call0_v13 : S1x1024.Idx → EReal) (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-! ## What a point writes back -/

/-- One entry of the stored block, from a features block whose row r is row R of the features: the perceptron's
    entry (R, d) by rows. -/
theorem stored_entry (x0 : Vec Ideal S512x8 .f32) (xq : S8192x8.Idx → EReal) (ct st : S1x8.Idx → EReal) (w1 : S4096x8.Idx → EReal)
    (b1 : S1x4096.Idx → EReal) (w2 : S1024x4096.Idx → EReal) (b2 : S1x1024.Idx → EReal) (r : Fin 512) (d : Fin 1024) (R : Fin 8192)
    (h0 : ∀ q : Fin 8, x0 (ix2 r q) = xq (ix2 R q)) :
    k0_pay1 (k0_pay2 x0 ct st w1 b1 w2) (k0_pay3 b2) (ix2 r d) = mlpRows xq ct st w1 b1 w2 b2 (ix2 R d) := by
  refine (payload_apply x0 ct st w1 b1 w2 b2 r d).trans ?_
  show entry _ _ _ _ _ = entry _ _ _ _ _
  simp only [h0]

/-- Entry (r, d) of the result's block at point t sits at row 512·t + r, column d of the result. -/
theorem block_result_at (t : Fin cfg0.N) (r : Fin 512) (d : Fin 1024) (R : Fin 8192) (hR : R.val = t.val * 512 + r.val) :
    ((cfg0.win 7).blk t).view.emb (ix2 r d) = (ix2 R d : S8192x1024.Idx) := by
  obtain ⟨e0, e1, -⟩ := point_blocks t
  funext a
  apply Fin.ext
  match a with
  | ⟨0, _⟩ => show win0_7.index t (0 : Fin 2) * 512 + 1 * r.val = R.val; omega
  | ⟨1, _⟩ => show win0_7.index t (1 : Fin 2) * 1024 + 1 * d.val = d.val; omega

/-- WHAT POINT t WRITES BACK is block t of `rowsResult`. -/
theorem flushed_eq (c : Dev nD) (t : Fin cfg0.N) :
    (dats m 0 c).flushed 7 t = ((cfg0.win 7).blk t).view.read (Elt Ideal) (rowsResult m c) := by
  show (cfg0.win 7).cut (grid0.coords t) ((dats m 0 c).after 7 t) = _
  rw [after0_7]
  unfold out0_7
  rw [View.canon_unit_zero zero_offsets]
  simp only [View.ld_unit_zero (S := S512x8) zero_offsets, View.ld_unit_zero (S := S1x8) zero_offsets,
    View.ld_unit_zero (S := S4096x8) zero_offsets, View.ld_unit_zero (S := S1x4096) zero_offsets,
    View.ld_unit_zero (S := S1024x4096) zero_offsets, View.ld_unit_zero (S := S1x1024) zero_offsets]
  have hN : cfg0.N = 16 := N_0
  have ht : t.val < 16 := hN ▸ t.isLt
  funext j
  obtain ⟨r, d, rfl⟩ : ∃ (r : Fin 512) (d : Fin 1024), j = ix2 r d := ⟨j 0, j 1, eq_ix2 j⟩
  show k0_pay1 (k0_pay2 (iblk m c 0 t) (iblk m c 1 t) (iblk m c 2 t) (iblk m c 3 t) (iblk m c 4 t) (iblk m c 5 t)) (k0_pay3 (iblk m c 6 t)) (ix2 r d)
    = rowsResult m c (((cfg0.win 7).blk t).view.emb (ix2 r d))
  rw [block_cosines m c t, block_sines m c t, block_weights1 m c t, block_bias1 m c t, block_weights2 m c t, block_bias2 m c t,
    block_result_at t r d ⟨t.val * 512 + r.val, by have := r.isLt; omega⟩ rfl]
  exact stored_entry (iblk m c 0 t) (V m c main_call0_v1) (V m c main_call0_v5) (V m c main_call0_v9) (V m c main_call0_v10)
    (V m c main_call0_v12) (V m c main_call0_v11) (V m c main_call0_v13) r d ⟨t.val * 512 + r.val, by have := r.isLt; omega⟩
    (fun q => block_features m c t r q ⟨t.val * 512 + r.val, by have := r.isLt; omega⟩ rfl)

/-! ## The blocks cover the result -/

/-- An index of the result is in point t's block iff each coordinate is in the block's range on its axis. -/
theorem mem_block (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_call0_v14).slice (win0_7.rect t)).set ↔ _
  rw [View.set_slice_whole, Rect.mem_set_unit]
  exact Iff.rfl

/-- Every index of the result lies in the block of the point ⌊row / 512⌋, which writes back. -/
theorem covered (i : S8192x1024.Idx) :
    ∃ t : Fin cfg0.N, (cfg0.win 7).flush t = true ∧ i ∈ ((cfg0.win 7).blk t).view.set := by
  have hN : cfg0.N = 16 := N_0
  have hi0 : (i 0).val < 8192 := (i 0).isLt
  have hi1 : (i 1).val < 1024 := (i 1).isLt
  obtain ⟨t, ht⟩ : ∃ t : Fin cfg0.N, t.val = (i 0).val / 512 := ⟨⟨(i 0).val / 512, by omega⟩, rfl⟩
  obtain ⟨e0, e1, -⟩ := point_blocks t
  refine ⟨t, flush0_7 t, ?_⟩
  rw [mem_block]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- THE RESULT ARRAY after the last point is `rowsResult`. -/
theorem result_array (c : Dev nD) : (dats m 0 c).arrAt 7 cfg0.N = rowsResult m c :=
  (dats m 0 c).arrAt_eq_of_cover 7 (rowsResult m c) (fun t _ => flushed_eq m c t) covered

end Cert.KernelIdeal.AsMlp

end
-- ==== Proof.Operands.lean ====
/-
  What the call finds in its seven operand arrays.

  Before the call the program prepares its operands with plain array operations: the first eight features of every
  token are sliced off and the tokens laid out as 8192 rows; the trained angles are halved and their cosines and sines
  taken, each laid out as one row; the weight matrices change number format (nothing, for an extended real); the two
  biases are each laid out as one row. Read at an index, the row r = b · 2048 + s of the features is token (b, s),
  the single rows hold the half-angle cosines and sines and the biases, and the weights are the caller's.
-/
import proofs.«159652_j65481071410316_2_alg».proof.Proof.Gen.KernelIdeal.Frame
import proofs.«159652_j65481071410316_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.AsMlp

open Cert.KernelIdeal Cert.KernelIdeal.Gen Idealize.ShloMosaic Idealize.ShloMosaic.TcCoe Idealize.SL.Sem
  Idealize.ShloMosaic.StableHlo Idealize.ShloMosaic.ValueIdx Cert.Mlp

variable (m : (ℓ : Loc nD τ sig) → Buf (Elt Ideal) ℓ)

/-! ## The caller's six arrays on a core, as arrays of extended reals -/

/-- The input tokens. -/
abbrev argTokens (c : Dev nD) : S4x2048x1024.Idx → EReal := m ((c : Thread nD τ).loc main_arg0)
/-- The trained angles. -/
abbrev argAngles (c : Dev nD) : S8.Idx → EReal := m ((c : Thread nD τ).loc main_arg1)
/-- The first weights. -/
abbrev argWeights1 (c : Dev nD) : S4096x8.Idx → EReal := m ((c : Thread nD τ).loc main_arg2)
/-- The first bias. -/
abbrev argBias1 (c : Dev nD) : S4096.Idx → EReal := m ((c : Thread nD τ).loc main_arg3)
/-- The second weights. -/
abbrev argWeights2 (c : Dev nD) : S1024x4096.Idx → EReal := m ((c : Thread nD τ).loc main_arg4)
/-- The second bias. -/
abbrev argBias2 (c : Dev nD) : S1024.Idx → EReal := m ((c : Thread nD τ).loc main_arg5)

/-! ## The operand arrays as terms of the caller's arrays -/

/-- The features: the first eight positions of every token, the tokens laid out as rows. -/
theorem found_features (c : Dev nD) :
    (V m c main_call0_v1 : S8192x8.Idx → EReal)
      = shapeCast S8192x8 (extractStridedSlice S4x2048x8 ![0, 0, 0] (argTokens m c) Facts₀.slices_S4x2048x1024_S4x2048x8_0_0_0)
          Facts₀.shapeCasts_S4x2048x8_S8192x8 := by
  show StableHlo.after hostOps0 (fun b => m (c, b)) (Proc.devRef .tc main_call0_v1) = _
  after_results; rfl

/-- The cosines of the halved angles, as one row. -/
theorem found_cosines (c : Dev nD) :
    (V m c main_call0_v5 : S1x8.Idx → EReal)
      = shapeCast S1x8 (Host.cos (F := Ideal) (mulf (argAngles m c)
          (broadcastInDim S8 ![] Facts₀.bcast_S_S8 (constant (F := Ideal) S_ .f32 0x3F000000#32)))) Facts₀.shapeCasts_S8_S1x8 := by
  show StableHlo.after hostOps0 (fun b => m (c, b)) (Proc.devRef .tc main_call0_v5) = _
  after_results; rfl

/-- The sines of the halved angles, as one row. -/
theorem found_sines (c : Dev nD) :
    (V m c main_call0_v9 : S1x8.Idx → EReal)
      = shapeCast S1x8 (Host.sin (F := Ideal) (mulf (argAngles m c)
          (broadcastInDim S8 ![] Facts₀.bcast_S_S8 (constant (F := Ideal) S_ .f32 0x3F000000#32)))) Facts₀.shapeCasts_S8_S1x8 := by
  show StableHlo.after hostOps0 (fun b => m (c, b)) (Proc.devRef .tc main_call0_v9) = _
  after_results; rfl

/-- The first weights: the caller's, in another number format. -/
theorem found_weights1 (c : Dev nD) :
    (V m c main_call0_v10 : S4096x8.Idx → EReal) = argWeights1 m c := by
  show StableHlo.after hostOps0 (fun b => m (c, b)) (Proc.devRef .tc main_call0_v10) = _
  after_results; rfl

/-- The second weights: the caller's, in another number format. -/
theorem found_weights2 (c : Dev nD) :
    (V m c main_call0_v11 : S1024x4096.Idx → EReal) = argWeights2 m c := by
  show StableHlo.after hostOps0 (fun b => m (c, b)) (Proc.devRef .tc main_call0_v11) = _
  after_results; rfl

/-- The first bias, as one row. -/
theorem found_bias1 (c : Dev nD) :
    (V m c main_call0_v12 : S1x4096.Idx → EReal) = shapeCast S1x4096 (argBias1 m c) Facts₀.shapeCasts_S4096_S1x4096 := by
  show StableHlo.after hostOps0 (fun b => m (c, b)) (Proc.devRef .tc main_call0_v12) = _
  after_results; rfl

/-- The second bias, as one row. -/
theorem found_bias2 (c : Dev nD) :
    (V m c main_call0_v13 : S1x1024.Idx → EReal) = shapeCast S1x1024 (argBias2 m c) Facts₀.shapeCasts_S1024_S1x1024 := by
  show StableHlo.after hostOps0 (fun b => m (c, b)) (Proc.devRef .tc main_call0_v13) = _
  after_results; rfl

/-! ## The same, read at an index -/

/-- Row r = b · 2048 + s of the features, at wire q, is position q of token (b, s). -/
theorem found_features_apply (c : Dev nD) (b : Fin 4) (s : Fin 2048) (q : Fin 8) (r : Fin 8192) (hr : r.val = b.val * 2048 + s.val) :
    (V m c main_call0_v1 : S8192x8.Idx → EReal) (ix2 r q) = argTokens m c (ix3 b s (feat q)) := by
  refine (congrFun (found_features m c) (ix2 r q)).trans ?_
  refine (shapeCast_apply _ _ (ix2 r q) (ix3 b s q) ?_).trans ?_
  · rw [Shape.rowMajor_val_three, Shape.rowMajor_val_two]
    show (b.val * 2048 + s.val) * 8 + q.val = r.val * 8 + q.val
    rw [hr]
  · exact extractStridedSlice_apply _ _ _ (ix3 b s q) (ix3 b s (feat q)) (fun a => by
      match a with
      | ⟨0, _⟩ => show b.val = 0 + b.val; omega
      | ⟨1, _⟩ => show s.val = 0 + s.val; omega
      | ⟨2, _⟩ => show q.val = 0 + q.val; omega)

/-- The one row of cosines at wire q is the cosine of half the angle of wire q. -/
theorem found_cosines_apply (c : Dev nD) (q : Fin 8) :
    (V m c main_call0_v5 : S1x8.Idx → EReal) (ix2 0 q) = Ideal.cos (argAngles m c (ix1 q) * half) :=
  (congrFun (found_cosines m c) (ix2 0 q)).trans ((shapeCast_a_1a_apply _ _ 0 q).trans rfl)

/-- The one row of sines at wire q is the sine of half the angle of wire q. -/
theorem found_sines_apply (c : Dev nD) (q : Fin 8) :
    (V m c main_call0_v9 : S1x8.Idx → EReal) (ix2 0 q) = Ideal.sin (argAngles m c (ix1 q) * half) :=
  (congrFun (found_sines m c) (ix2 0 q)).trans ((shapeCast_a_1a_apply _ _ 0 q).trans rfl)

/-- The one row of the first bias at hidden unit f is the caller's bias there. -/
theorem found_bias1_apply (c : Dev nD) (f : Fin 4096) :
    (V m c main_call0_v12 : S1x4096.Idx → EReal) (ix2 0 f) = argBias1 m c (ix1 f) :=
  (congrFun (found_bias1 m c) (ix2 0 f)).trans (shapeCast_a_1a_apply _ _ 0 f)

/-- The one row of the second bias at output d is the caller's bias there. -/
theorem found_bias2_apply (c : Dev nD) (d : Fin 1024) :
    (V m c main_call0_v13 : S1x1024.Idx → EReal) (ix2 0 d) = argBias2 m c (ix1 d) :=
  (congrFun (found_bias2 m c) (ix2 0 d)).trans (shapeCast_a_1a_apply _ _ 0 d)

end Cert.KernelIdeal.AsMlp

end
-- ==== Proof.KernelRun.lean ====
/-
  The kernel program's result, laid out by token, is the perceptron of the qubit expectations.

  After the call the program lays the 8192 result rows out as 4 × 2048 tokens: entry (b, s, d) of the program's
  result is entry (b · 2048 + s, d) of the result array by rows. That array is `rowsResult` (every row written by
  the one grid point whose block holds it), and row b · 2048 + s of the operands the call found is token (b, s) of
  the caller's arrays, so the entry is `Cert.Mlp.mlpTokens` of the caller's six arrays at (b, s, d). The run itself
  — every weakly fair execution ends, nothing faults, the arguments are as launched — is the generated one; only
  the name of what the result buffer holds is added here.
-/
import proofs.«159652_j65481071410316_2_alg».proof.Proof.Gen.KernelIdeal.Frame
import proofs.«159652_j65481071410316_2_alg».proof.Proof.Blocks
import proofs.«159652_j65481071410316_2_alg».proof.Proof.Operands
import proofs.«159652_j65481071410316_2_alg».proof.Proof.Spec
import Idealize.ShloMosaic.Lib.ValueIdx
import Idealize.ShloMosaic.Lib.Pipeline.Value
import Idealize.ShloMosaic.Lib.StableHlo.Run

noncomputable section

namespace Cert.KernelIdeal.AsMlp

open Cert.KernelIdeal Cert.KernelIdeal.Gen Idealize.ShloMosaic Idealize.ShloMosaic.TcCoe Idealize.SL.Sem
  Idealize.ShloMosaic.StableHlo Idealize.ShloMosaic.ValueIdx Idealize.ShloMosaic.Pipeline Cert.Mlp

variable (m : (ℓ : Loc nD τ sig) → Buf (Elt Ideal) ℓ) (ρ : Dev nD → PrngReg)

/-- What the program's result buffer holds after the line that follows the call: the result array by rows,
    re-laid by token. -/
theorem tail_result (c : Dev nD) :
    (Pipeline.afterTail₀ cfgs (dats m) 0 (V0 m) [hostOps1] c main_v0 : S4x2048x1024.Idx → EReal)
      = shapeCast S4x2048x1024 (rowsResult m c) Facts₀.shapeCasts_S8192x1024_S4x2048x1024 := by
  have e : Pipeline.withArrays (cfgs 0).spec c (V0 m c) (fun w => (dats m 0 c).arrAt w (cfgs 0).N) (Proc.devRef .tc main_call0_v14)
      = rowsResult m c :=
    (Pipeline.withArrays_arr spec0 launch0.win.arr_inj c _ _ 7).trans (result_array m c)
  unfold Pipeline.afterTail₀
  show StableHlo.after hostOps1 _ (Proc.devRef .tc main_v0) = _
  after_results
  exact congrArg (fun A : S8192x1024.Idx → EReal => shapeCast S4x2048x1024 A Facts₀.shapeCasts_S8192x1024_S4x2048x1024) e

/-- Entry (b, s, d) of the program's result is the perceptron's entry for token (b, s) and output d. -/
theorem result_entry (c : Dev nD) (b : Fin 4) (s : Fin 2048) (d : Fin 1024) :
    (Pipeline.afterTail₀ cfgs (dats m) 0 (V0 m) [hostOps1] c main_v0 : S4x2048x1024.Idx → EReal) (ix3 b s d)
      = mlpTokens (argTokens m c) (argAngles m c) (argWeights1 m c) (argBias1 m c) (argWeights2 m c) (argBias2 m c) (ix3 b s d) := by
  have hb := b.isLt
  have hs := s.isLt
  refine (congrFun (tail_result m c) (ix3 b s d)).trans ?_
  refine (shapeCast_apply _ _ (ix3 b s d) (ix2 (⟨b.val * 2048 + s.val, by omega⟩ : Fin 8192) d) ?_).trans ?_
  · rw [Shape.rowMajor_val_two, Shape.rowMajor_val_three]
    rfl
  · exact mlpRows_at_token (V m c main_call0_v1) (V m c main_call0_v5) (V m c main_call0_v9) (V m c main_call0_v10)
      (V m c main_call0_v12) (V m c main_call0_v11) (V m c main_call0_v13)
      (argTokens m c) (argAngles m c) (argWeights1 m c) (argBias1 m c) (argWeights2 m c) (argBias2 m c) b s d
      (⟨b.val * 2048 + s.val, by omega⟩ : Fin 8192)
      (fun q => found_features_apply m c b s q _ rfl) (found_cosines_apply m c) (found_sines_apply m c) (found_weights1 m c)
      (found_bias1_apply m c) (found_weights2 m c) (found_bias2_apply m c)

/-- The program's result is the perceptron of the expectations, for every token and output. -/
theorem result_eq (c : Dev nD) :
    (Pipeline.afterTail₀ cfgs (dats m) 0 (V0 m) [hostOps1] c main_v0 : S4x2048x1024.Idx → EReal)
      = mlpTokens (argTokens m c) (argAngles m c) (argWeights1 m c) (argBias1 m c) (argWeights2 m c) (argBias2 m c) := by
  funext i
  obtain ⟨b, s, d, rfl⟩ : ∃ (b : Fin 4) (s : Fin 2048) (d : Fin 1024), i = ix3 b s d := ⟨i 0, i 1, i 2, eq_ix3 i⟩
  exact result_entry m c b s d

/-- THE RUN, with the result named: every weakly fair execution of the kernel program ends, nothing faulting, with the
    result buffer at the perceptron of the expectations of the launch contents and the six arguments as launched. -/
theorem run : θ_run defs (onTc (τ := τ) (main (F := Ideal))) ⟨m, fun _ => 0, ρ⟩ (fun r => ∀ c : Dev nD,
      r.2.mem ((c.tc : Thread nD τ).loc main_v0)
        = mlpTokens (argTokens m c) (argAngles m c) (argWeights1 m c) (argBias1 m c) (argWeights2 m c) (argBias2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.AsMlp

end
-- ==== Proof.Reference.lean ====
/-
  The reference computes the perceptron of the qubit expectations, entry by entry.

  Its program is the formula written out on whole arrays: the first eight features of every token sliced off,
  halved, their cosines and sines; the half-angle cosines and sines of the trained angles spread over the tokens;
  the two populations and their difference; a contraction with the first weight matrix over the eight wires, the
  bias, the positive part; a contraction with the second weight matrix over the 4096 hidden units, the bias. Read at
  an entry (b, s, d), every spreading step reads its operand at the coordinates it keeps and every contraction is a
  finite sum, so the entry is `Cert.Mlp.mlpTokens` there — the same operations in the same order, and nothing to
  rearrange.
-/
import proofs.«159652_j65481071410316_2_alg».proof.Proof.Gen.ReferenceIdeal.Read
import proofs.«159652_j65481071410316_2_alg».proof.Proof.Spec

noncomputable section

namespace Cert.ReferenceIdeal.AsMlp

open Cert.ReferenceIdeal Cert.ReferenceIdeal.Read Idealize.ShloMosaic Idealize.ShloMosaic.ValueIdx Cert.Mlp

/-! ## Where each step reads its operand, at an entry (b, s, d), a hidden unit f and a wire q -/

/-- The hidden activations are read at (b, s, f), the features under them at (b, s, q): position q of the token. -/
theorem feature_at (b : Fin 4) (s : Fin 2048) (d : Fin 1024) (f : Fin 4096) (q : Fin 8) :
    idx_main_v0 (lidx_main_v32 (lidx_main_v37 (ix3 b s d) f) q) = ix3 b s (feat q) :=
  funext fun a => by match a with | ⟨0, _⟩ => rfl | ⟨1, _⟩ => rfl | ⟨2, _⟩ => rfl

/-- The half-angle cosine spread over the tokens (first population) is read at wire q. -/
theorem angle_at_14 (b : Fin 4) (s : Fin 2048) (d : Fin 1024) (f : Fin 4096) (q : Fin 8) :
    idx_main_v13 (idx_main_v14 (lidx_main_v32 (lidx_main_v37 (ix3 b s d) f) q)) = ix1 q :=
  funext fun a => by match a with | ⟨0, _⟩ => rfl
/-- The half-angle sine spread over the tokens (first population) is read at wire q. -/
theorem angle_at_18 (b : Fin 4) (s : Fin 2048) (d : Fin 1024) (f : Fin 4096) (q : Fin 8) :
    idx_main_v17 (idx_main_v18 (lidx_main_v32 (lidx_main_v37 (ix3 b s d) f) q)) = ix1 q :=
  funext fun a => by match a with | ⟨0, _⟩ => rfl
/-- The half-angle sine spread over the tokens (second population) is read at wire q. -/
theorem angle_at_23 (b : Fin 4) (s : Fin 2048) (d : Fin 1024) (f : Fin 4096) (q : Fin 8) :
    idx_main_v22 (idx_main_v23 (lidx_main_v32 (lidx_main_v37 (ix3 b s d) f) q)) = ix1 q :=
  funext fun a => by match a with | ⟨0, _⟩ => rfl
/-- The half-angle cosine spread over the tokens (second population) is read at wire q. -/
theorem angle_at_27 (b : Fin 4) (s : Fin 2048) (d : Fin 1024) (f : Fin 4096) (q : Fin 8) :
    idx_main_v26 (idx_main_v27 (lidx_main_v32 (lidx_main_v37 (ix3 b s d) f) q)) = ix1 q :=
  funext fun a => by match a with | ⟨0, _⟩ => rfl

/-- The first weight matrix is read at (f, q). -/
theorem weight1_at (b : Fin 4) (s : Fin 2048) (d : Fin 1024) (f : Fin 4096) (q : Fin 8) :
    ridx_main_v32 (lidx_main_v37 (ix3 b s d) f) q = ix2 f q :=
  funext fun a => by match a with | ⟨0, _⟩ => rfl | ⟨1, _⟩ => rfl

/-- The first bias, spread over the tokens, is read at f. -/
theorem bias1_at (b : Fin 4) (s : Fin 2048) (d : Fin 1024) (f : Fin 4096) :
    idx_main_v33 (idx_main_v34 (lidx_main_v37 (ix3 b s d) f)) = ix1 f :=
  funext fun a => by match a with | ⟨0, _⟩ => rfl

/-- The second weight matrix is read at (d, f). -/
theorem weight2_at (b : Fin 4) (s : Fin 2048) (d : Fin 1024) (f : Fin 4096) :
    ridx_main_v37 (ix3 b s d) f = ix2 d f :=
  funext fun a => by match a with | ⟨0, _⟩ => rfl | ⟨1, _⟩ => rfl

/-- The second bias, spread over the tokens, is read at d. -/
theorem bias2_at (b : Fin 4) (s : Fin 2048) (d : Fin 1024) :
    idx_main_v38 (idx_main_v39 (ix3 b s d)) = ix1 d :=
  funext fun a => by match a with | ⟨0, _⟩ => rfl

/-! ## The reference's result is the perceptron of the expectations -/

/-- Entry by entry the reference's last stage is `mlpTokens` of the six arguments. -/
theorem result_eq (x : (⟨S4x2048x1024, .f32⟩ : BufTy).Contents (Elt Ideal)) (θ : (⟨S8, .f32⟩ : BufTy).Contents (Elt Ideal))
    (W1 : (⟨S4096x8, .f32⟩ : BufTy).Contents (Elt Ideal)) (b1 : (⟨S4096, .f32⟩ : BufTy).Contents (Elt Ideal))
    (W2 : (⟨S1024x4096, .f32⟩ : BufTy).Contents (Elt Ideal)) (b2 : (⟨S1024, .f32⟩ : BufTy).Contents (Elt Ideal)) :
    val_main_v40 (F := Ideal) x θ W1 b1 W2 b2 = mlpTokens x θ W1 b1 W2 b2 := by
  funext i
  obtain ⟨b, s, d, rfl⟩ : ∃ (b : Fin 4) (s : Fin 2048) (d : Fin 1024), i = ix3 b s d := ⟨i 0, i 1, i 2, eq_ix3 i⟩
  simp only [val_main_v40_apply, val_main_v39_apply, val_main_v38_apply, val_main_v37_apply, val_main_v36_apply,
    val_main_call0_v0_apply, val_main_call0_cst_apply, val_main_v35_apply, val_main_v34_apply, val_main_v33_apply,
    val_main_v32_apply, val_main_v31_apply, val_main_v30_apply, val_main_v29_apply, val_main_v28_apply,
    val_main_v27_apply, val_main_v26_apply, val_main_v25_apply, val_main_v24_apply, val_main_v23_apply,
    val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_cst_2_apply, val_main_v9_apply,
    val_main_v8_apply, val_main_v7_apply, val_main_cst_1_apply, val_main_v6_apply, val_main_v5_apply,
    val_main_v4_apply, val_main_cst_0_apply, val_main_v3_apply, val_main_v2_apply, val_main_v1_apply,
    val_main_cst_apply, val_main_v0_apply,
    feature_at, angle_at_14, angle_at_18, angle_at_23, angle_at_27, weight1_at, bias1_at, weight2_at, bias2_at,
    Ideal.mulf_def, Ideal.addf_def, Ideal.subf_def, Ideal.maximumf_def, Ideal.hostUnary_cos_def, Ideal.hostUnary_sin_def,
    Ideal.ofBits_def]
  rfl

end Cert.ReferenceIdeal.AsMlp

end
-- ==== Proof.lean ====
/-
  A quantum-encoded perceptron: the blocked kernel and the plain reference compute the same array.

  Both programs take tokens x[b, s, ·], trained angles θ, and the weights and biases of a two-layer perceptron.
  For each token the first eight features are each encoded on a qubit (a rotation about X by the feature, a rotation
  about Y by θ_q) and the expectation of Z is read off as the difference of the two populations
  (ct·c)² + (st·s)² and (st·c)² + (ct·s)², with c, s the cosine and sine of half the feature and ct, st those of
  half the angle. The eight expectations z go through  out = max(z · W1ᵀ + b1, 0) · W2ᵀ + b2.

  The reference does this on whole arrays. The kernel program prepares row operands (tokens as 8192 rows, the
  half-angle cosines and sines and the biases as single rows), runs one body over 16 blocks of 512 rows, each body
  doing both products into zero accumulators, and lays the 8192 result rows out by token again.

  On the extended reals the two are the same function, `Cert.Mlp.mlpTokens`, entry by entry, with no law of
  arithmetic needed: the operations are the same in the same order, a change of number format is the identity, a
  product into a zero accumulator and a contraction are the same finite sum, and blocking only says which grid point
  computes a row. So the finiteness of the inputs is never used.
    · the reference's result is `mlpTokens`:  Proof/Reference.lean, over the generated stage-by-stage reading of its run;
    · the body's stored block, entry by entry:  Proof/Payload.lean;
    · the operands the call finds:              Proof/Operands.lean;
    · from the 16 blocks to the result array:   Proof/Blocks.lean;
    · the kernel program's result and run:      Proof/KernelRun.lean;
    · the entry formula and its two layouts:    Proof/Spec.lean.
  The three frames are the generated ones (the reference's is its generated run with the result dropped), and the
  idealized kernel is the printed kernel read on the extended reals with nothing rewritten, so there is nothing to
  preserve.
-/
import proofs.«159652_j65481071410316_2_alg».proof.Defs
import proofs.«159652_j65481071410316_2_alg».proof.Proof.Gen.Kernel
import proofs.«159652_j65481071410316_2_alg».proof.Proof.Gen.Kernel.Frame
import proofs.«159652_j65481071410316_2_alg».proof.Proof.Gen.KernelIdeal
import proofs.«159652_j65481071410316_2_alg».proof.Proof.Gen.KernelIdeal.Frame
import proofs.«159652_j65481071410316_2_alg».proof.Proof.Gen.ReferenceIdeal
import proofs.«159652_j65481071410316_2_alg».proof.Proof.Gen.ReferenceIdeal.Run
import proofs.«159652_j65481071410316_2_alg».proof.Proof.Gen.ReferenceIdeal.Read
import proofs.«159652_j65481071410316_2_alg».proof.Proof.Gen.Pre_finite_inputs
import proofs.«159652_j65481071410316_2_alg».proof.Proof.KernelRun
import proofs.«159652_j65481071410316_2_alg».proof.Proof.Reference
import Idealize.ShloMosaic.Adequacy
import Idealize.ShloMosaic.Init

noncomputable section

namespace Cert.Proof

open Idealize.ShloMosaic Idealize.SL.Sem

/-- The printed kernel runs and leaves its arguments as launched. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the statement about its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From launch memories that agree on the six arguments, both programs end with the perceptron of the qubit
    expectations of those arguments in their result buffers. -/
theorem algebraic : Cert.algebraic_KernelIdeal_ReferenceIdeal := by
  intro m ρ m' ρ' _ hagree
  refine ⟨fun c => Cert.Mlp.mlpTokens (Cert.KernelIdeal.AsMlp.argTokens m c) (Cert.KernelIdeal.AsMlp.argAngles m c)
      (Cert.KernelIdeal.AsMlp.argWeights1 m c) (Cert.KernelIdeal.AsMlp.argBias1 m c) (Cert.KernelIdeal.AsMlp.argWeights2 m c)
      (Cert.KernelIdeal.AsMlp.argBias2 m c), Cert.KernelIdeal.AsMlp.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v40_eq, Cert.ReferenceIdeal.AsMlp.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
